-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S64x512 : Shape := ⟨2, ![64, 512]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8192x512 .f32) (main_arg1 : FVec F S64x512 .f32) (main_arg2 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x512 : Shape := ⟨2, ![8192, 512]⟩
abbrev S64x512 : Shape := ⟨2, ![64, 512]⟩
abbrev S64 : Shape := ⟨1, ![64]⟩
abbrev S1x64 : Shape := ⟨2, ![1, 64]⟩
abbrev S8192x64 : Shape := ⟨2, ![8192, 64]⟩
abbrev S512x512 : Shape := ⟨2, ![512, 512]⟩
abbrev S512x64 : Shape := ⟨2, ![512, 64]⟩
abbrev S512x128 : Shape := ⟨2, ![512, 128]⟩
abbrev S64x128 : Shape := ⟨2, ![64, 128]⟩
abbrev S512x1x128 : Shape := ⟨3, ![512, 1, 128]⟩
abbrev S1x64x128 : Shape := ⟨3, ![1, 64, 128]⟩
abbrev S512x64x128 : Shape := ⟨3, ![512, 64, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S64x512, .f32⟩
  | .hbm, ⟨2, _⟩ => ⟨S64, .f32⟩
  | .hbm, ⟨3, _⟩ => ⟨S1x64, .f32⟩
  | .hbm, ⟨4, _⟩ => ⟨S8192x64, .f32⟩
  | .local _ .vmem, ⟨0, _⟩ => ⟨S512x512, .f32⟩
  | .local _ .vmem, ⟨1, _⟩ => ⟨S512x512, .f32⟩
  | .local _ .vmem, ⟨2, _⟩ => ⟨S64x512, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v10 : BitVec 32 := Scalar.muli arg5 c128_i32
  v10
def k0_off1 (k0_t1 : Fin k0_t1_loop.trips) : Fin 2 → Nat :=
  let c0_5 : Index := 0#32
  let c0_i32 : BitVec 32 := 0#32
  let c1_i32 : BitVec 32 := 1#32
  let arg5 : BitVec 32 := Scf.iv c0_i32 c1_i32 k0_t1
  let c128_i32 : BitVec 32 := 128#32
  let v10 : BitVec 32 := Scalar.muli arg5 c128_i32
  let v11 : BitVec 32 := v10
  let v12 : Index := Scalar.indexCast v11
  ![0, v12.toNat]
def k0_off2 (k0_t1 : Fin k0_t1_loop.trips) : Fin 2 → Nat :=
  let c0_6 : Index := 0#32
  let c0_i32 : BitVec 32 := 0#32
  let c1_i32 : BitVec 32 := 1#32
  let arg5 : BitVec 32 := Scf.iv c0_i32 c1_i32 k0_t1
  let c128_i32 : BitVec 32 := 128#32
  let v10 : BitVec 32 := Scalar.muli arg5 c128_i32
  let v11 : BitVec 32 := v10
  let v14 : Index := Scalar.indexCast v11
  ![0, v14.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64_S1x64 : S64.ShapeCasts S1x64
  h_S512x128 : 0 < S512x128.numel
  h_S64x128 : 0 < S64x128.numel
  shapeCasts_S512x128_S512x1x128 : S512x128.ShapeCasts S512x1x128
  shapeCasts_S64x128_S1x64x128 : S64x128.ShapeCasts S1x64x128
  broadcasts_S512x1x128_S512x64x128 : S512x1x128.Broadcasts S512x64x128
  broadcasts_S1x64x128_S512x64x128 : S1x64x128.Broadcasts S512x64x128
  reduces_S512x64x128_S512x64 : S512x64x128.Reduces [2] S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S512x128.size a ≤ S512x512.size a
  k0_off2_inb : ∀ k0_t1 : Fin k0_t1_loop.trips, ∀ a, (k0_off2 k0_t1) a + S64x128.size a ≤ S64x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S8192x64.size a
  hwx0_3 : ∀ i : grid0.Coords, EltTy.bits .f32 = 32 ∨ (Rect.block (s := S8192x64) S512x64.size (cc0_transform_3 i) (hinb0_3 i)).WholeWords (EltTy.packing .f32)

variable [Facts₀]

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S64x512 : Shape := ⟨2, ![64, 512]⟩
abbrev S64 : Shape := ⟨1, ![64]⟩
abbrev S8192x1x512 : Shape := ⟨3, ![8192, 1, 512]⟩
abbrev S1x64x512 : Shape := ⟨3, ![1, 64, 512]⟩
abbrev S8192x64x512 : Shape := ⟨3, ![8192, 64, 512]⟩
abbrev S_ : Shape := ⟨0, ![]⟩
abbrev S8192x64 : Shape := ⟨2, ![8192, 64]⟩
abbrev S1x64 : Shape := ⟨2, ![1, 64]⟩

abbrev nBuf : Space → Nat
  | .hbm => 16
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S64x512, .f32⟩
  | .hbm, ⟨2, _⟩ => ⟨S64, .f32⟩
  | .hbm, ⟨3, _⟩ => ⟨S8192x1x512, .f32⟩
  | .hbm, ⟨4, _⟩ => ⟨S1x64x512, .f32⟩
  | .hbm, ⟨5, _⟩ => ⟨S8192x64x512, .f32⟩
  | .hbm, ⟨6, _⟩ => ⟨S8192x64x512, .f32⟩
  | .hbm, ⟨7, _⟩ => ⟨S8192x64x512, .f32⟩
  | .hbm, ⟨8, _⟩ => ⟨S_, .f32⟩
  | .hbm, ⟨9, _⟩ => ⟨S8192x64, .f32⟩
  | .hbm, ⟨10, _⟩ => ⟨S_, .f32⟩
  | .hbm, ⟨11, _⟩ => ⟨S8192x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S8192x512_S8192x1x512_0_2 : S8192x512.BroadcastsInDim S8192x1x512 (![0, 2] : Fin 2 → Fin S8192x1x512.rank)
  bcast_S64x512_S1x64x512_1_2 : S64x512.BroadcastsInDim S1x64x512 (![1, 2] : Fin 2 → Fin S1x64x512.rank)
  bcast_S8192x1x512_S8192x64x512_0_1_2 : S8192x1x512.BroadcastsInDim S8192x64x512 (![0, 1, 2] : Fin 3 → Fin S8192x64x512.rank)
  bcast_S1x64x512_S8192x64x512_0_1_2 : S1x64x512.BroadcastsInDim S8192x64x512 (![0, 1, 2] : Fin 3 → Fin S8192x64x512.rank)
  reducesTo_S8192x64x512_S8192x64_d2 : S8192x64x512.ReducesTo [2] S8192x64
  h_S_ : 0 < S_.numel
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)

variable [Facts₀]

class Facts : Prop extends Facts₀ where

variable [Facts]
-- ==== Proof.LoopValue.lean ====
/-
  What the kernel body leaves in its output block, as a pure term of the three input blocks, at any float instance.

  The body walks the 512 columns of its blocks in four trips of 128 columns. Trip `k` reads columns
  `128 k … 128 k + 127` of the x block (512 rows) and of the w block (64 rows), forms all 512 × 64 × 128 sums
  `x[p, l] + w[q, l]`, takes their maximum and minimum over the 128 lanes `l`, and joins them onto the running
  maximum and minimum it carries. The carried pair starts at (−∞, +∞) everywhere. After the four trips the body
  stores (running maximum − running minimum) + bias row, over the whole output block.

  `step` is one trip as a function of the carried pair; `carried` the pair after the four trips; `body_eq` says the
  output block's contents are `k0_pay6` of that pair and the bias block.
-/
import proofs.«177423_j8091718386440_2_alg».proof.Proof.Gen.KernelIdeal.Frame
import Idealize.ShloMosaic.Lib.Pipeline.Value

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The loop runs four trips. -/
theorem trips_eq : k0_t1_loop.trips = 4 := by decide

/-- Trip `k` (of four) as a member of the loop's trips. -/
def tr (k : Fin 4) : Fin k0_t1_loop.trips := ⟨k.val, by rw [trips_eq]; exact k.isLt⟩

theorem tr_val (k : Fin 4) : (tr k).val = k.val := rfl

/-- The columns of the x block that trip `k` reads: a 512 × 128 chunk. -/
def xChunk (x0 : Vec F S512x512 .f32) (k : Fin k0_t1_loop.trips) : Vec F S512x128 .f32 :=
  View.ld x0 (Rect.unit (s := S512x512) (k0_off1 k) S512x128.size (Facts₀.k0_off1_inb k))

/-- The columns of the w block that trip `k` reads: a 64 × 128 chunk. -/
def wChunk (x1 : Vec F S64x512 .f32) (k : Fin k0_t1_loop.trips) : Vec F S64x128 .f32 :=
  View.ld x1 (Rect.unit (s := S64x512) (k0_off2 k) S64x128.size (Facts₀.k0_off2_inb k))

/-- One trip on the carried (maximum, minimum) pair. -/
def step (x0 : Vec F S512x512 .f32) (x1 : Vec F S64x512 .f32) (k : Fin k0_t1_loop.trips)
    (a : FVec F S512x64 .f32 × FVec F S512x64 .f32) : FVec F S512x64 .f32 × FVec F S512x64 .f32 :=
  (k0_pay4 a.1 (xChunk x0 k) (wChunk x1 k), k0_pay5 a.2 (xChunk x0 k) (wChunk x1 k))

/-- The carried pair after the four trips, from (−∞, +∞). -/
def carried (x0 : Vec F S512x512 .f32) (x1 : Vec F S64x512 .f32) : FVec F S512x64 .f32 × FVec F S512x64 .f32 :=
  step x0 x1 (tr 3) (step x0 x1 (tr 2) (step x0 x1 (tr 1) (step x0 x1 (tr 0) (k0_pay1 (F := F), k0_pay2 (F := F)))))

/-- What one trip of the loop yields is `step` of what the two staging buffers read: the trip loads its two chunks and
    returns the carried pair joined with their lane extrema. -/
theorem trip_eq (𝒱 : Variants) (c : Dev nD) (bd : Option 𝒱.V) (i : grid0.Coords) (arg1 : Memref sig .tc .vmem S512x512 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S512x64 .f32) (harg4 : arg4.IsWhole)
    (X_arg1 : BufTy.Contents (Elt F) arg1.view.ty) (X_arg2 : BufTy.Contents (Elt F) arg2.view.ty) (k : Fin k0_t1_loop.trips)
    (acc : FVec F S512x64 .f32 × FVec F S512x64 .f32) :
    tripR_k0_t1 (F := F) 𝒱 c bd i arg1 harg1 arg2 harg2 arg3 harg3 arg4 harg4 X_arg1 X_arg2 k acc
      = step (arg1.view.read (Elt F) X_arg1) (arg2.view.read (Elt F) X_arg2) k acc := by
  unfold tripR_k0_t1 trip_k0_t1
  rfl

/-- The carried pair after the loop: the four trips composed. -/
theorem st_final (𝒱 : Variants) (c : Dev nD) (bd : Option 𝒱.V) (i : grid0.Coords) (arg1 : Memref sig .tc .vmem S512x512 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S512x64 .f32) (harg4 : arg4.IsWhole)
    (x0 : Vec F S512x512 .f32) (x1 : Vec F S64x512 .f32) :
    st_k0_t1 (F := F) 𝒱 c bd i arg1 harg1 arg2 harg2 arg3 harg3 arg4 harg4 (harg1.unread x0) (harg2.unread x1) (k0_pay1 (F := F), k0_pay2 (F := F)) 4
      = carried x0 x1 := by
  have hs : ∀ (k : Fin k0_t1_loop.trips),
      st_k0_t1 (F := F) 𝒱 c bd i arg1 harg1 arg2 harg2 arg3 harg3 arg4 harg4 (harg1.unread x0) (harg2.unread x1) (k0_pay1 (F := F), k0_pay2 (F := F)) (k.val + 1)
        = step x0 x1 k (st_k0_t1 (F := F) 𝒱 c bd i arg1 harg1 arg2 harg2 arg3 harg3 arg4 harg4 (harg1.unread x0) (harg2.unread x1) (k0_pay1 (F := F), k0_pay2 (F := F)) k.val) := by
    intro k
    rw [st_k0_t1_succ, trip_eq, harg1.read_unread, harg2.read_unread]
  exact (hs (tr 3)).trans (congrArg (step x0 x1 (tr 3))
    ((hs (tr 2)).trans (congrArg (step x0 x1 (tr 2))
      ((hs (tr 1)).trans (congrArg (step x0 x1 (tr 1)) (hs (tr 0)))))))

/-- The zero offsets of the whole-block rectangles. -/
theorem zero_off : (![0, 0] : Fin 2 → Nat) = fun _ => 0 := by
  funext a; match a with | ⟨0, _⟩ => rfl | ⟨1, _⟩ => rfl

/-- What the body leaves in the output block: (running maximum − running minimum) + bias row, of the pair the four
    trips carry — the body's one store covers the whole block, so the block holds exactly that store's value. -/
theorem body_eq (c : Dev nD) (i : grid0.Coords) (arg1 : Memref sig .tc .vmem S512x512 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S512x64 .f32) (harg4 : arg4.IsWhole)
    (x0 : Vec F S512x512 .f32) (x1 : Vec F S64x512 .f32) (x2 : Vec F S1x64 .f32) :
    out0_A_3 c i arg1 harg1 arg2 harg2 arg3 harg3 arg4 harg4 x0 x1 x2 = k0_pay6 (carried x0 x1).1 (carried x0 x1).2 x2 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero zero_off]
  rw [show Scf.trips (0#32) (Scalar.addi 0#32 4#32) 1#32 = 4 from trips_eq, st_final]
  simp only [View.readAt_eq_ld, harg3.read_unread, View.ld_unit_zero (S := S1x64) zero_off]

end Cert.KernelIdeal.Body

end
-- ==== Proof.ChunkedExtrema.lean ====
/-
  Order facts that join an extremum taken chunk by chunk with the extremum taken over the whole axis.

  An axis of 512 coordinates is cut into four chunks of 128: coordinate `128 * k + l` is lane `l` of chunk `k`.
  Starting from a seed `e`, folding `max` over each chunk (each chunk's fold seeded with `e` again) and then
  joining the four chunk results onto `e` one after the other gives the fold of `max` from `e` over all 512
  coordinates; the same with `min`. Nothing is assumed of the seed: both sides have the same upper bounds
  (lower bounds), namely the bounds of `e` and of every `f d`. So the statement holds in any linear order, in
  particular on the extended reals with the seeds the two infinities, without ever evaluating a seed.
-/
import Idealize.ShloMosaic.PureOps.Reduce

namespace Cert.TropSpec

/-- Lane `l` of chunk `k`: coordinate `128 * k + l` of the long axis. -/
def lane (k : Fin 4) (l : Fin 128) : Fin 512 := ⟨128 * k.val + l.val, by have := k.isLt; have := l.isLt; omega⟩

theorem lane_val (k : Fin 4) (l : Fin 128) : (lane k l).val = 128 * k.val + l.val := rfl

/-- Every coordinate of the long axis is a lane of one of the four chunks. -/
theorem exists_lane (d : Fin 512) : ∃ (k : Fin 4) (l : Fin 128), d = lane k l :=
  ⟨⟨d.val / 128, by have := d.isLt; omega⟩, ⟨d.val % 128, Nat.mod_lt _ (by decide)⟩, Fin.ext (by
    show d.val = 128 * (d.val / 128) + d.val % 128
    omega)⟩

variable {α : Type*} [LinearOrder α]

/-- The maximum over the long axis, chunk by chunk: the four chunk maxima joined onto the seed one after the
    other are the maximum over all coordinates. -/
theorem fold_max_chunks (e : α) (f : Fin 512 → α) :
    max (max (max (max e (Finset.univ.fold max e fun l : Fin 128 => f (lane 0 l)))
        (Finset.univ.fold max e fun l : Fin 128 => f (lane 1 l)))
        (Finset.univ.fold max e fun l : Fin 128 => f (lane 2 l)))
        (Finset.univ.fold max e fun l : Fin 128 => f (lane 3 l))
      = Finset.univ.fold max e f := by
  refine eq_of_forall_ge_iff fun c => ?_
  simp only [max_le_iff, Finset.fold_max_le, Finset.mem_univ, forall_true_left]
  constructor
  · rintro ⟨⟨⟨⟨he, -, h0⟩, -, h1⟩, -, h2⟩, -, h3⟩
    refine ⟨he, fun d => ?_⟩
    obtain ⟨k, l, rfl⟩ := exists_lane d
    match k with
    | ⟨0, _⟩ => exact h0 l
    | ⟨1, _⟩ => exact h1 l
    | ⟨2, _⟩ => exact h2 l
    | ⟨3, _⟩ => exact h3 l
  · rintro ⟨he, h⟩
    exact ⟨⟨⟨⟨he, he, fun l => h _⟩, he, fun l => h _⟩, he, fun l => h _⟩, he, fun l => h _⟩

/-- The minimum over the long axis, chunk by chunk. -/
theorem fold_min_chunks (e : α) (f : Fin 512 → α) :
    min (min (min (min e (Finset.univ.fold min e fun l : Fin 128 => f (lane 0 l)))
        (Finset.univ.fold min e fun l : Fin 128 => f (lane 1 l)))
        (Finset.univ.fold min e fun l : Fin 128 => f (lane 2 l)))
        (Finset.univ.fold min e fun l : Fin 128 => f (lane 3 l))
      = Finset.univ.fold min e f := by
  refine eq_of_forall_le_iff fun c => ?_
  simp only [le_min_iff, Finset.le_fold_min, Finset.mem_univ, forall_true_left]
  constructor
  · rintro ⟨⟨⟨⟨he, -, h0⟩, -, h1⟩, -, h2⟩, -, h3⟩
    refine ⟨he, fun d => ?_⟩
    obtain ⟨k, l, rfl⟩ := exists_lane d
    match k with
    | ⟨0, _⟩ => exact h0 l
    | ⟨1, _⟩ => exact h1 l
    | ⟨2, _⟩ => exact h2 l
    | ⟨3, _⟩ => exact h3 l
  · rintro ⟨he, h⟩
    exact ⟨⟨⟨⟨he, he, fun l => h _⟩, he, fun l => h _⟩, he, fun l => h _⟩, he, fun l => h _⟩

end Cert.TropSpec
-- ==== Proof.TropSpec.lean ====
/-
  The result both programs compute, as one function of the argument arrays over the extended reals.

  For a row `b` of x (512 entries) and a row `u` of w (512 entries) form the 512 sums `x[b, d] + w[u, d]`. The
  result at `(b, u)` is their spread — the largest minus the smallest — plus `bias[u]`:

      out[b, u] = (max_d (x[b, d] + w[u, d]) − min_d (x[b, d] + w[u, d])) + bias[u].

  The maximum is taken as a fold of `max` from the seed −∞, the minimum as a fold of `min` from the seed +∞; the seeds
  are kept as the float words the programs spell them with and are never evaluated.
-/
import proofs.«177423_j8091718386440_2_alg».proof.Proof.ChunkedExtrema
import Idealize.ShloMosaic.PureOps.Ideal
import Idealize.ShloMosaic.Lib.ValueIdx

noncomputable section

namespace Cert.TropSpec

open Idealize.ShloMosaic Idealize.ShloMosaic.ValueIdx

/-- The seed of every maximum: the word of −∞. -/
abbrev negSeed : EReal := Ideal.ofBits .f32 0xFF800000#32
/-- The seed of every minimum: the word of +∞. -/
abbrev posSeed : EReal := Ideal.ofBits .f32 0x7F800000#32

/-- The spread of 512 values, plus an offset: (their maximum − their minimum) + `b`. -/
def spread (f : Fin 512 → EReal) (b : EReal) : EReal :=
  (Finset.univ.fold max negSeed f - Finset.univ.fold min posSeed f) + b

/-- The spread taken chunk by chunk: four chunk maxima (minima) of 128 lanes each, joined onto the seed one after
    the other, then subtracted and offset, is the spread over all 512 values. -/
theorem spread_chunks (f : Fin 512 → EReal) (b : EReal) :
    (max (max (max (max negSeed (Finset.univ.fold max negSeed fun l : Fin 128 => f (lane 0 l)))
          (Finset.univ.fold max negSeed fun l : Fin 128 => f (lane 1 l)))
          (Finset.univ.fold max negSeed fun l : Fin 128 => f (lane 2 l)))
          (Finset.univ.fold max negSeed fun l : Fin 128 => f (lane 3 l))
      - min (min (min (min posSeed (Finset.univ.fold min posSeed fun l : Fin 128 => f (lane 0 l)))
          (Finset.univ.fold min posSeed fun l : Fin 128 => f (lane 1 l)))
          (Finset.univ.fold min posSeed fun l : Fin 128 => f (lane 2 l)))
          (Finset.univ.fold min posSeed fun l : Fin 128 => f (lane 3 l))) + b
      = spread f b := by
  unfold spread
  rw [fold_max_chunks, fold_min_chunks]

/-- The result over the whole arrays: at `(b, u)` the spread of row `b` of `X` plus row `u` of `W`, offset by `B u`. -/
def G (X : (⟨2, ![8192, 512]⟩ : Shape).Idx → EReal) (W : (⟨2, ![64, 512]⟩ : Shape).Idx → EReal)
    (B : (⟨1, ![64]⟩ : Shape).Idx → EReal) : (⟨2, ![8192, 64]⟩ : Shape).Idx → EReal :=
  fun i => spread (fun d => X (ix2 (i 0) d) + W (ix2 (i 1) d)) (B (ix1 (i 1)))

/-- The same over one block of 512 rows of `X`, all of `W`, and the bias as a one-row block. -/
def blockG (x0 : (⟨2, ![512, 512]⟩ : Shape).Idx → EReal) (x1 : (⟨2, ![64, 512]⟩ : Shape).Idx → EReal)
    (x2 : (⟨2, ![1, 64]⟩ : Shape).Idx → EReal) : (⟨2, ![512, 64]⟩ : Shape).Idx → EReal :=
  fun j => spread (fun d => x0 (ix2 (j 0) d) + x1 (ix2 (j 1) d)) (x2 (ix2 (0 : Fin 1) (j 1)))

/-- The block form at `(p, q)` is `G` at `(r, q)` when row `p` of the x block is row `r` of `X`, row `q` of the w block is
    row `q` of `W`, and entry `(0, q)` of the bias block is `B q`. -/
theorem blockG_eq_G (X : (⟨2, ![8192, 512]⟩ : Shape).Idx → EReal) (W : (⟨2, ![64, 512]⟩ : Shape).Idx → EReal)
    (B : (⟨1, ![64]⟩ : Shape).Idx → EReal)
    (x0 : (⟨2, ![512, 512]⟩ : Shape).Idx → EReal) (x1 : (⟨2, ![64, 512]⟩ : Shape).Idx → EReal)
    (x2 : (⟨2, ![1, 64]⟩ : Shape).Idx → EReal) (r : Fin 8192) (p : Fin 512) (q : Fin 64)
    (hx : ∀ d : Fin 512, x0 (ix2 p d) = X (ix2 r d)) (hw : ∀ d : Fin 512, x1 (ix2 q d) = W (ix2 q d))
    (hb : x2 (ix2 (0 : Fin 1) q) = B (ix1 q)) :
    blockG x0 x1 x2 (ix2 p q) = G X W B (ix2 r q) := by
  show spread (fun d => x0 (ix2 p d) + x1 (ix2 q d)) (x2 (ix2 (0 : Fin 1) q))
      = spread (fun d => X (ix2 r d) + W (ix2 q d)) (B (ix1 q))
  rw [hb]
  refine congrArg (fun f : Fin 512 → EReal => spread f (B (ix1 q))) (funext fun d => ?_)
  rw [hx, hw]

end Cert.TropSpec

end
-- ==== Proof.TripChunks.lean ====
/-
  The chunks a trip reads, at an index, over the extended reals: lane `l` of trip `k`'s chunk is column
  `128 k + l` of the block it is read from (the trip's load rectangle starts at column `128 k` and has unit strides).
-/
import proofs.«177423_j8091718386440_2_alg».proof.Proof.LoopValue
import proofs.«177423_j8091718386440_2_alg».proof.Proof.TropSpec
import Idealize.ShloMosaic.Lib.ValueIdx

set_option maxRecDepth 16384

noncomputable section

namespace Cert.KernelIdeal.Body

open Cert.KernelIdeal Cert.KernelIdeal.Gen Idealize.ShloMosaic Idealize.ShloMosaic.ValueIdx Cert.TropSpec

/-- Lane `l` of row `p` of trip `k`'s x chunk is column `128 k + l` of row `p` of the x block. -/
theorem xChunk_apply (x0 : Vec Ideal S512x512 .f32) (k : Fin 4) (p : Fin 512) (l : Fin 128) :
    xChunk x0 (tr k) (ix2 p l) = x0 (ix2 p (lane k l)) := by
  unfold xChunk
  show x0 ((Rect.unit (s := S512x512) (k0_off1 (tr k)) S512x128.size (Facts₀.k0_off1_inb (tr k))).idx (ix2 p l)) = _
  refine congrArg x0 (funext fun a => Fin.ext ?_)
  rw [LoadRect.idx_apply]
  show (k0_off1 (tr k)) a + 1 * ((ix2 p l) a).val = ((ix2 p (lane k l)) a).val
  rw [k0_off1_eq, tr_val]
  match a with
  | ⟨0, _⟩ => show 0 + 1 * p.val = p.val; omega
  | ⟨1, _⟩ => show 128 * k.val + 1 * l.val = 128 * k.val + l.val; omega

/-- Lane `l` of row `q` of trip `k`'s w chunk is column `128 k + l` of row `q` of the w block. -/
theorem wChunk_apply (x1 : Vec Ideal S64x512 .f32) (k : Fin 4) (q : Fin 64) (l : Fin 128) :
    wChunk x1 (tr k) (ix2 q l) = x1 (ix2 q (lane k l)) := by
  unfold wChunk
  show x1 ((Rect.unit (s := S64x512) (k0_off2 (tr k)) S64x128.size (Facts₀.k0_off2_inb (tr k))).idx (ix2 q l)) = _
  refine congrArg x1 (funext fun a => Fin.ext ?_)
  rw [LoadRect.idx_apply]
  show (k0_off2 (tr k)) a + 1 * ((ix2 q l) a).val = ((ix2 q (lane k l)) a).val
  rw [k0_off2_eq, tr_val]
  match a with
  | ⟨0, _⟩ => show 0 + 1 * q.val = q.val; omega
  | ⟨1, _⟩ => show 128 * k.val + 1 * l.val = 128 * k.val + l.val; omega

end Cert.KernelIdeal.Body

end
-- ==== Proof.TripAtIndex.lean ====
/-
  One trip's arithmetic, and the final store's, read at an index over the extended reals.

  The trip's 512 × 64 × 128 sums are `xs[p, l] + ws[q, l]` (`sums_apply`); its new running maximum at `(p, q)` is the old
  one joined with the fold of `max` from −∞ over the 128 lanes of those sums (`trip_max`), likewise the minimum
  (`trip_min`); the store's value is (maximum − minimum) + the bias row's entry (`store_apply`).
-/
import proofs.«177423_j8091718386440_2_alg».proof.Proof.Gen.KernelIdeal.Skeleton
import proofs.«177423_j8091718386440_2_alg».proof.Proof.TropSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen Idealize.ShloMosaic Idealize.ShloMosaic.ValueIdx Cert.TropSpec

/-! ## The body's operations as plain terms -/

/-- The trip's sums: the x chunk with a unit middle axis, repeated 64 times along it, plus the w chunk with a unit leading
    axis, repeated 512 times along it. -/
theorem sums_def (v13 : Vec Ideal S512x128 .f32) (v15 : Vec Ideal S64x128 .f32) :
    k0_pay3 (F := Ideal) v13 v15
      = addf (broadcastTo S512x64x128 (shapeCast S512x1x128 v13 shapeCasts_S512x128_S512x1x128) broadcasts_S512x1x128_S512x64x128)
          (broadcastTo S512x64x128 (shapeCast S1x64x128 v15 shapeCasts_S64x128_S1x64x128) broadcasts_S1x64x128_S512x64x128) := rfl

/-- The trip's new running maximum: the old one joined, entry by entry, with the lane maxima of the sums. -/
theorem max_def (a : FVec Ideal S512x64 .f32) (v13 : Vec Ideal S512x128 .f32) (v15 : Vec Ideal S64x128 .f32) :
    k0_pay4 (F := Ideal) a v13 v15
      = maximumf a (multiReduction (F := Ideal) .maximumf [2] S512x64 (k0_pay3 (F := Ideal) v13 v15) 0xFF800000#32
          reduces_S512x64x128_S512x64 (.inl rfl) rfl) := rfl

/-- The trip's new running minimum. -/
theorem min_def (a : FVec Ideal S512x64 .f32) (v13 : Vec Ideal S512x128 .f32) (v15 : Vec Ideal S64x128 .f32) :
    k0_pay5 (F := Ideal) a v13 v15
      = minimumf a (multiReduction (F := Ideal) .minimumf [2] S512x64 (k0_pay3 (F := Ideal) v13 v15) 0x7F800000#32
          reduces_S512x64x128_S512x64 (.inl rfl) rfl) := rfl

/-- The final store's value: (maximum − minimum) + the bias row repeated down the 512 rows. -/
theorem store_def (a b : FVec Ideal S512x64 .f32) (v5 : Vec Ideal S1x64 .f32) :
    k0_pay6 (F := Ideal) a b v5
      = addf (subf a b) (broadcastTo S512x64 (shapeCast S1x64 v5 shapeCasts_S1x64_S1x64) broadcasts_S1x64_S512x64) := rfl

/-! ## Read at an index -/

/-- The x chunk repeated along the middle axis: entry `(p, q, l)` is `xs[p, l]`. -/
theorem xrep_apply (v13 : Vec Ideal S512x128 .f32) (p : Fin 512) (q : Fin 64) (l : Fin 128) :
    broadcastTo S512x64x128 (shapeCast S512x1x128 v13 shapeCasts_S512x128_S512x1x128) broadcasts_S512x1x128_S512x64x128 (ix3 p q l)
      = v13 (ix2 p l) := by
  refine (broadcastTo_apply _ broadcasts_S512x1x128_S512x64x128 (ix3 p q l) (ix3 p (0 : Fin 1) l) (fun a => ?_)).trans ?_
  · match a with
    | ⟨0, _⟩ => show p.val = if (512 : Nat) = 1 then 0 else p.val; rw [if_neg (by decide)]
    | ⟨1, _⟩ => show 0 = if (1 : Nat) = 1 then 0 else q.val; rw [if_pos rfl]
    | ⟨2, _⟩ => show l.val = if (128 : Nat) = 1 then 0 else l.val; rw [if_neg (by decide)]
  · exact shapeCast_apply v13 shapeCasts_S512x128_S512x1x128 (ix3 p (0 : Fin 1) l) (ix2 p l) (by
      rw [Shape.rowMajor_val_two, Shape.rowMajor_val_three]
      show p.val * 128 + l.val = (p.val * 1 + 0) * 128 + l.val
      omega)

/-- The w chunk repeated along the leading axis: entry `(p, q, l)` is `ws[q, l]`. -/
theorem wrep_apply (v15 : Vec Ideal S64x128 .f32) (p : Fin 512) (q : Fin 64) (l : Fin 128) :
    broadcastTo S512x64x128 (shapeCast S1x64x128 v15 shapeCasts_S64x128_S1x64x128) broadcasts_S1x64x128_S512x64x128 (ix3 p q l)
      = v15 (ix2 q l) := by
  refine (broadcastTo_apply _ broadcasts_S1x64x128_S512x64x128 (ix3 p q l) (ix3 (0 : Fin 1) q l) (fun a => ?_)).trans ?_
  · match a with
    | ⟨0, _⟩ => show 0 = if (1 : Nat) = 1 then 0 else p.val; rw [if_pos rfl]
    | ⟨1, _⟩ => show q.val = if (64 : Nat) = 1 then 0 else q.val; rw [if_neg (by decide)]
    | ⟨2, _⟩ => show l.val = if (128 : Nat) = 1 then 0 else l.val; rw [if_neg (by decide)]
  · exact shapeCast_ab_1ab_apply v15 shapeCasts_S64x128_S1x64x128 (0 : Fin 1) q l

/-- The 512 × 64 × 128 sums of a trip: entry `(p, q, l)` is `xs[p, l] + ws[q, l]`. -/
theorem sums_apply (v13 : Vec Ideal S512x128 .f32) (v15 : Vec Ideal S64x128 .f32) (p : Fin 512) (q : Fin 64) (l : Fin 128) :
    k0_pay3 (F := Ideal) v13 v15 (ix3 p q l) = v13 (ix2 p l) + v15 (ix2 q l) := by
  rw [sums_def, addf_apply, xrep_apply, wrep_apply]

/-- The source index of the lane reduction over result index `(p, q)` at lane `l` is `(p, q, l)`. -/
theorem lift_eq (p : Fin 512) (q : Fin 64) (l : Fin 128) :
    reduces_S512x64x128_S512x64.lift (ix2 p q) l = ix3 p q l := by
  funext a; apply Fin.ext
  match a with
  | ⟨0, _⟩ => rfl
  | ⟨1, _⟩ => rfl
  | ⟨2, _⟩ => rfl

/-- A `<minimumf>` lane reduction over one axis at the extended reals: the fold of `min` from the accumulator's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The lane maxima of a trip's sums at `(p, q)`: the fold of `max` from −∞ over the 128 lanes. -/
theorem lane_max (v13 : Vec Ideal S512x128 .f32) (v15 : Vec Ideal S64x128 .f32) (p : Fin 512) (q : Fin 64) :
    multiReduction (F := Ideal) .maximumf [2] S512x64 (k0_pay3 (F := Ideal) v13 v15) 0xFF800000#32
        reduces_S512x64x128_S512x64 (.inl rfl) rfl (ix2 p q)
      = Finset.univ.fold max negSeed fun l : Fin 128 => v13 (ix2 p l) + v15 (ix2 q l) := by
  refine (Ideal.multiReduction_maximumf_single (k0_pay3 (F := Ideal) v13 v15) 0xFF800000#32 reduces_S512x64x128_S512x64
    (.inl rfl) rfl (ix2 p q)).trans ?_
  refine congrArg (fun f : Fin 128 → EReal => Finset.fold max negSeed f Finset.univ) (funext fun (l : Fin 128) => ?_)
  exact (congrArg (k0_pay3 (F := Ideal) v13 v15) (lift_eq p q l)).trans (sums_apply v13 v15 p q l)

/-- The lane minima of a trip's sums at `(p, q)`. -/
theorem lane_min (v13 : Vec Ideal S512x128 .f32) (v15 : Vec Ideal S64x128 .f32) (p : Fin 512) (q : Fin 64) :
    multiReduction (F := Ideal) .minimumf [2] S512x64 (k0_pay3 (F := Ideal) v13 v15) 0x7F800000#32
        reduces_S512x64x128_S512x64 (.inl rfl) rfl (ix2 p q)
      = Finset.univ.fold min posSeed fun l : Fin 128 => v13 (ix2 p l) + v15 (ix2 q l) := by
  refine (multiReduction_minimumf_single (k0_pay3 (F := Ideal) v13 v15) 0x7F800000#32 reduces_S512x64x128_S512x64
    (.inl rfl) rfl (ix2 p q)).trans ?_
  refine congrArg (fun f : Fin 128 → EReal => Finset.fold min posSeed f Finset.univ) (funext fun (l : Fin 128) => ?_)
  exact (congrArg (k0_pay3 (F := Ideal) v13 v15) (lift_eq p q l)).trans (sums_apply v13 v15 p q l)

/-- One trip's new running maximum at `(p, q)`: the old one joined with the maximum over the trip's 128 lanes. -/
theorem trip_max (a : FVec Ideal S512x64 .f32) (v13 : Vec Ideal S512x128 .f32) (v15 : Vec Ideal S64x128 .f32) (p : Fin 512) (q : Fin 64) :
    k0_pay4 (F := Ideal) a v13 v15 (ix2 p q)
      = max (a (ix2 p q)) (Finset.univ.fold max negSeed fun l : Fin 128 => v13 (ix2 p l) + v15 (ix2 q l)) := by
  rw [max_def, maximumf_apply, lane_max]

/-- One trip's new running minimum at `(p, q)`. -/
theorem trip_min (a : FVec Ideal S512x64 .f32) (v13 : Vec Ideal S512x128 .f32) (v15 : Vec Ideal S64x128 .f32) (p : Fin 512) (q : Fin 64) :
    k0_pay5 (F := Ideal) a v13 v15 (ix2 p q)
      = min (a (ix2 p q)) (Finset.univ.fold min posSeed fun l : Fin 128 => v13 (ix2 p l) + v15 (ix2 q l)) := by
  rw [min_def, minimumf_apply, lane_min]

/-- The final store's value at `(p, q)`: (running maximum − running minimum) + the bias row's entry `q`. -/
theorem store_apply (a b : FVec Ideal S512x64 .f32) (v5 : Vec Ideal S1x64 .f32) (p : Fin 512) (q : Fin 64) :
    k0_pay6 (F := Ideal) a b v5 (ix2 p q) = (a (ix2 p q) - b (ix2 p q)) + v5 (ix2 (0 : Fin 1) q) := by
  rw [store_def, addf_apply, subf_apply, shapeCast_self, broadcastTo_1b_ab_apply]

end Cert.KernelIdeal.Body

end
-- ==== Proof.BodyBlock.lean ====
/-
  The kernel body's output block over the extended reals: entry `(p, q)` is the spread of the 512 sums
  `x0[p, d] + x1[q, d]` plus the bias entry `x2[0, q]`.

  The running maximum after the four trips is the seed −∞ joined with the four trips' lane maxima, trip `k`'s lanes
  being columns `128 k … 128 k + 127` (`carried_max`); likewise the minimum from +∞ (`carried_min`). By the chunk law
  (`spread_chunks`) these are the maximum and minimum over all 512 columns.
-/
import proofs.«177423_j8091718386440_2_alg».proof.Proof.LoopValue
import proofs.«177423_j8091718386440_2_alg».proof.Proof.TripChunks
import proofs.«177423_j8091718386440_2_alg».proof.Proof.TripAtIndex
import proofs.«177423_j8091718386440_2_alg».proof.Proof.TropSpec

set_option maxRecDepth 16384

noncomputable section

namespace Cert.KernelIdeal.Body

open Cert.KernelIdeal Cert.KernelIdeal.Gen Idealize.ShloMosaic Idealize.ShloMosaic.ValueIdx Cert.TropSpec

/-- The running maximum starts at −∞ everywhere, the running minimum at +∞. -/
theorem seed_max_apply (j : S512x64.Idx) : k0_pay1 (F := Ideal) j = negSeed := rfl
theorem seed_min_apply (j : S512x64.Idx) : k0_pay2 (F := Ideal) j = posSeed := rfl

/-- The running maximum after the four trips, at `(p, q)`. -/
theorem carried_max (x0 : Vec Ideal S512x512 .f32) (x1 : Vec Ideal S64x512 .f32) (p : Fin 512) (q : Fin 64) :
    (carried (F := Ideal) x0 x1).1 (ix2 p q)
      = max (max (max (max negSeed (Finset.univ.fold max negSeed fun l : Fin 128 => x0 (ix2 p (lane 0 l)) + x1 (ix2 q (lane 0 l))))
          (Finset.univ.fold max negSeed fun l : Fin 128 => x0 (ix2 p (lane 1 l)) + x1 (ix2 q (lane 1 l))))
          (Finset.univ.fold max negSeed fun l : Fin 128 => x0 (ix2 p (lane 2 l)) + x1 (ix2 q (lane 2 l))))
          (Finset.univ.fold max negSeed fun l : Fin 128 => x0 (ix2 p (lane 3 l)) + x1 (ix2 q (lane 3 l))) := by
  unfold carried step
  dsimp only
  rw [trip_max, trip_max, trip_max, trip_max, seed_max_apply]
  simp only [xChunk_apply, wChunk_apply]

/-- The running minimum after the four trips, at `(p, q)`. -/
theorem carried_min (x0 : Vec Ideal S512x512 .f32) (x1 : Vec Ideal S64x512 .f32) (p : Fin 512) (q : Fin 64) :
    (carried (F := Ideal) x0 x1).2 (ix2 p q)
      = min (min (min (min posSeed (Finset.univ.fold min posSeed fun l : Fin 128 => x0 (ix2 p (lane 0 l)) + x1 (ix2 q (lane 0 l))))
          (Finset.univ.fold min posSeed fun l : Fin 128 => x0 (ix2 p (lane 1 l)) + x1 (ix2 q (lane 1 l))))
          (Finset.univ.fold min posSeed fun l : Fin 128 => x0 (ix2 p (lane 2 l)) + x1 (ix2 q (lane 2 l))))
          (Finset.univ.fold min posSeed fun l : Fin 128 => x0 (ix2 p (lane 3 l)) + x1 (ix2 q (lane 3 l))) := by
  unfold carried step
  dsimp only
  rw [trip_min, trip_min, trip_min, trip_min, seed_min_apply]
  simp only [xChunk_apply, wChunk_apply]

/-- What the body leaves in the output block is the block form of the result: entry `(p, q)` the spread of row `p` of the
    x block plus row `q` of the w block, offset by the bias entry `q`. -/
theorem body_block (c : Dev nD) (i : grid0.Coords) (arg1 : Memref sig .tc .vmem S512x512 .f32) (harg1 : arg1.IsWhole) (arg2 : Memref sig .tc .vmem S64x512 .f32) (harg2 : arg2.IsWhole) (arg3 : Memref sig .tc .vmem S1x64 .f32) (harg3 : arg3.IsWhole) (arg4 : Memref sig .tc .vmem S512x64 .f32) (harg4 : arg4.IsWhole)
    (x0 : Vec Ideal S512x512 .f32) (x1 : Vec Ideal S64x512 .f32) (x2 : Vec Ideal S1x64 .f32) :
    out0_A_3 (F := Ideal) c i arg1 harg1 arg2 harg2 arg3 harg3 arg4 harg4 x0 x1 x2 = blockG x0 x1 x2 := by
  rw [body_eq]
  funext j
  obtain ⟨p, q, rfl⟩ : ∃ (p : Fin 512) (q : Fin 64), j = ix2 p q := ⟨j 0, j 1, eq_ix2 j⟩
  rw [store_apply, carried_max, carried_min]
  exact spread_chunks (fun d => x0 (ix2 p d) + x1 (ix2 q d)) (x2 (ix2 (0 : Fin 1) q))

end Cert.KernelIdeal.Body

end
-- ==== Proof.KernelArray.lean ====
/-
  The kernel's result array is `G` of its argument arrays, over the extended reals.

  The grid has 16 points; point `t` works on rows `512 t … 512 t + 511` of x and of the output, on all of w, and on the
  bias as one row of 64 (the host reshapes it before the launch). So row `p` of point `t`'s x block is row
  `512 t + p` of x (`xblk_apply`), its w block is w (`wblk_apply`), its bias block's entry `(0, q)` is `bias[q]`
  (`bblk_apply`), and what it writes back — the block form of the result on those blocks — is rows
  `512 t … 512 t + 511` of `G` (`flushed_eq`). The 16 row blocks tile the 8192 rows (`cover`), so the array ends
  holding `G` (`final`), the arguments unchanged (`run`).
-/
import proofs.«177423_j8091718386440_2_alg».proof.Proof.Gen.KernelIdeal.Value
import proofs.«177423_j8091718386440_2_alg».proof.Proof.BodyBlock
import proofs.«177423_j8091718386440_2_alg».proof.Proof.TropSpec
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.ArrayValue

open Cert.KernelIdeal Cert.KernelIdeal.Gen Cert.KernelIdeal.Body Idealize.ShloMosaic Idealize.ShloMosaic.TcCoe Idealize.SL.Sem
open Idealize.ShloMosaic.ValueIdx Cert.TropSpec
open Idealize.ShloMosaic.Pipeline (Dat)

variable (m : (ℓ : Loc nD τ sig) → Buf (Elt Ideal) ℓ) (ρ : Dev nD → PrngReg)

/-! ## Where the blocks sit -/

/-- The printed index maps over the 16 grid points: the x window and the output window are at row block `t`, column
    block 0; the w window and the bias window stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s row block is row `512 t + p` of the array. -/
def row (t : Fin cfg0.N) (p : Fin 512) : Fin 8192 :=
  ⟨512 * t.val + p.val, by have ht : t.val < 16 := lt_of_lt_of_eq t.isLt N_0; have := p.isLt; omega⟩

theorem row_val (t : Fin cfg0.N) (p : Fin 512) : (row t p).val = 512 * t.val + p.val := rfl

/-! ## The input blocks at an index -/

/-- Entry `(p, d)` of point `t`'s x block is `x[512 t + p, d]`. -/
theorem xblk_apply (c : Dev nD) (t : Fin cfg0.N) (p : Fin 512) (d : Fin 512) :
    (iblk m c 0 t : Vec Ideal S512x512 .f32) (ix2 p d) = ((m ((c : Thread nD τ).loc main_arg0)) : S8192x512.Idx → EReal) (ix2 (row t p) d) := by
  obtain ⟨e0, e1, -⟩ := idx_facts t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 512 + 1 * p.val = 512 * t.val + p.val; rw [e0]; omega
  | ⟨1, _⟩ => show win0_0.index t (1 : Fin 2) * 512 + 1 * d.val = d.val; rw [e1]; omega

/-- Entry `(q, d)` of any point's w block is `w[q, d]`. -/
theorem wblk_apply (c : Dev nD) (t : Fin cfg0.N) (q : Fin 64) (d : Fin 512) :
    (iblk m c 1 t : Vec Ideal S64x512 .f32) (ix2 q d) = ((m ((c : Thread nD τ).loc main_arg1)) : S64x512.Idx → EReal) (ix2 q d) := by
  obtain ⟨-, -, e2, e3, -⟩ := idx_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 64 + 1 * q.val = q.val; rw [e2]; omega
  | ⟨1, _⟩ => show win0_1.index t (1 : Fin 2) * 512 + 1 * d.val = d.val; rw [e3]; omega

/-- The bias as the region finds it: the host's reshape of the 64 entries into one row. -/
theorem bias_row (c : Dev nD) :
    (V m c main_v0 : S1x64.Idx → EReal) = shapeCast S1x64 ((m ((c : Thread nD τ).loc main_arg2)) : S64.Idx → EReal) shapeCasts_S64_S1x64 := by
  dsimp only [Gen.V, Gen.hostOps0]; after_results; rfl

/-- Entry `(0, q)` of any point's bias block is `bias[q]`. -/
theorem bblk_apply (c : Dev nD) (t : Fin cfg0.N) (q : Fin 64) :
    (iblk m c 2 t : Vec Ideal S1x64 .f32) (ix2 (0 : Fin 1) q) = ((m ((c : Thread nD τ).loc main_arg2)) : S64.Idx → EReal) (ix1 q) := by
  obtain ⟨-, -, -, -, e4, e5, -⟩ := idx_facts t
  unfold iblk
  rw [View.read_apply]
  show (V m c main_v0 : S1x64.Idx → EReal) _ = _
  rw [bias_row]
  refine (congrArg (shapeCast S1x64 ((m ((c : Thread nD τ).loc main_arg2)) : S64.Idx → EReal) shapeCasts_S64_S1x64)
    (show _ = ix2 (0 : Fin 1) q from funext fun a => Fin.ext ?_)).trans
    (shapeCast_a_1a_apply _ shapeCasts_S64_S1x64 (0 : Fin 1) q)
  match a with
  | ⟨0, _⟩ => show win0_2.index t (0 : Fin 2) * 1 + 1 * 0 = 0; rw [e4]
  | ⟨1, _⟩ => show win0_2.index t (1 : Fin 2) * 64 + 1 * q.val = q.val; rw [e5]; omega

/-! ## What a point writes back -/

/-- Entry `(p, q)` of point `t`'s output block sits at `(512 t + p, q)` of the output array. -/
theorem out_emb (t : Fin cfg0.N) (p : Fin 512) (q : Fin 64) :
    (((cfg0.win 3).blk t).view.emb (ix2 p q) : S8192x64.Idx) = ix2 (row t p) q := by
  obtain ⟨-, -, -, -, -, -, e6, e7⟩ := idx_facts t
  funext a; apply Fin.ext
  match a with
  | ⟨0, _⟩ => show win0_3.index t (0 : Fin 2) * 512 + 1 * p.val = 512 * t.val + p.val; rw [e6]; omega
  | ⟨1, _⟩ => show win0_3.index t (1 : Fin 2) * 64 + 1 * q.val = q.val; rw [e7]; omega

/-- WHAT POINT `t` WRITES BACK is block `t` of `G` of the argument arrays. -/
theorem flushed_eq (c : Dev nD) (t : Fin cfg0.N) :
    (dats m 0 c).flushed 3 t
      = ((cfg0.win 3).blk t).view.read (Elt Ideal) (G (m ((c : Thread nD τ).loc main_arg0)) (m ((c : Thread nD τ).loc main_arg1)) (m ((c : Thread nD τ).loc main_arg2))) := by
  rw [Value.flushed3_A,
    body_block c (grid0.coords t) (ms0_0 t) (hs0_0 t) (ms0_1 t) (hs0_1 t) (ms0_2 t) (hs0_2 t) (ms0_3 t) (hs0_3 t)
      (iblk m c 0 t) (iblk m c 1 t) (iblk m c 2 t)]
  funext j
  obtain ⟨p, q, rfl⟩ : ∃ (p : Fin 512) (q : Fin 64), j = ix2 p q := ⟨j 0, j 1, eq_ix2 (n0 := 512) (n1 := 64) j⟩
  show blockG (iblk m c 0 t : Vec Ideal S512x512 .f32) (iblk m c 1 t : Vec Ideal S64x512 .f32) (iblk m c 2 t : Vec Ideal S1x64 .f32) (ix2 p q)
      = G (m ((c : Thread nD τ).loc main_arg0)) (m ((c : Thread nD τ).loc main_arg1)) (m ((c : Thread nD τ).loc main_arg2)) (((cfg0.win 3).blk t).view.emb (ix2 p q))
  rw [out_emb]
  exact blockG_eq_G (m ((c : Thread nD τ).loc main_arg0)) (m ((c : Thread nD τ).loc main_arg1)) (m ((c : Thread nD τ).loc main_arg2)) (iblk m c 0 t) (iblk m c 1 t) (iblk m c 2 t)
    (row t p) p q (fun d => xblk_apply m c t p d) (fun d => wblk_apply m c t q d) (bblk_apply m c t q)

/-! ## The blocks tile the array -/

/-- An index of the output array is in point `t`'s block iff each coordinate is in the block's range on its axis. -/
theorem mem_blk (t : Fin cfg0.N) (i : S8192x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v1).slice (win0_3.rect t)).set ↔ _
  rw [View.set_slice_whole, Rect.mem_set_unit]
  exact Iff.rfl

/-- Every index of the output array is in the block of the point its row falls in: point `(i 0) / 512`. -/
theorem cover (i : S8192x64.Idx) : ∃ t : Fin cfg0.N, (cfg0.win 3).flush t = true ∧ i ∈ ((cfg0.win 3).blk t).view.set := by
  have hi0 : (i 0).val < 8192 := (i 0).isLt
  have hi1 : (i 1).val < 64 := (i 1).isLt
  let t : Fin cfg0.N := ⟨(i 0).val / 512, by rw [show cfg0.N = 16 from N_0]; omega⟩
  obtain ⟨-, -, -, -, -, -, e6, e7⟩ := idx_facts t
  have ht : t.val = (i 0).val / 512 := rfl
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; rw [e6, ht]; omega
  | ⟨1, _⟩ => show win0_3.index t (1 : Fin 2) * 64 ≤ (i 1).val ∧ (i 1).val < win0_3.index t (1 : Fin 2) * 64 + 64; rw [e7]; omega

/-! ## The array after the run -/

/-- The output array after the run is `G` of the argument arrays. -/
theorem final (c : Dev nD) :
    (dats m 0 c).arrAt 3 cfg0.N = G (m ((c : Thread nD τ).loc main_arg0)) (m ((c : Thread nD τ).loc main_arg1)) (m ((c : Thread nD τ).loc main_arg2)) :=
  (dats m 0 c).arrAt_eq_of_cover 3 (G (m ((c : Thread nD τ).loc main_arg0)) (m ((c : Thread nD τ).loc main_arg1)) (m ((c : Thread nD τ).loc main_arg2)))
    (fun t _ => flushed_eq m c t) cover

/-- The kernel's run: every weakly fair execution terminates with the result array at `G` of the arguments and the
    arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.ReferenceValue.lean ====
/-
  The reference's result is `G` of its arguments, over the extended reals.

  The reference forms the three-dimensional array of sums `s[b, u, d] = x[b, d] + w[u, d]` (two broadcasts each side,
  then an addition), reduces it over `d` once by `max` from −∞ and once by `min` from +∞, subtracts, and adds the bias
  broadcast down the rows. Read at `(b, u)`: each reduction is the fold over the 512 coordinates `d` of the sums of row
  `b` of x and row `u` of w, so the result is their spread plus `bias[u]` — `G` by definition.
-/
import proofs.«177423_j8091718386440_2_alg».proof.Proof.Gen.ReferenceIdeal.Read
import proofs.«177423_j8091718386440_2_alg».proof.Proof.TropSpec
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Idealize.ShloMosaic Idealize.ShloMosaic.ValueIdx Cert.TropSpec

/-- The two reductions drop the last of the three axes. -/
theorem reduces_d : S8192x64x512.Reduces [2] S8192x64 := by decide

/-- The source index of either reduction over result index `(b, u)` at coordinate `d` is `(b, u, d)`. -/
theorem lift_eq (b : Fin 8192) (u : Fin 64) (d : Fin 512) : reduces_d.lift (ix2 b u) d = ix3 b u d := by
  funext a; apply Fin.ext
  match a with
  | ⟨0, _⟩ => rfl
  | ⟨1, _⟩ => rfl
  | ⟨2, _⟩ => rfl

/-- The array of sums at `(b, u, d)`: `x[b, d] + w[u, d]`. -/
theorem sums_apply (X : (⟨S8192x512, .f32⟩ : BufTy).Contents (Elt Ideal)) (W : (⟨S64x512, .f32⟩ : BufTy).Contents (Elt Ideal))
    (b : Fin 8192) (u : Fin 64) (d : Fin 512) :
    val_main_v4 (F := Ideal) X W (ix3 b u d) = X (ix2 b d) + W (ix2 u d) := by
  rw [val_main_v4_apply, val_main_v2_apply, val_main_v0_apply, val_main_v3_apply, val_main_v1_apply]
  have e0 : idx_main_v0 (idx_main_v2 (ix3 b u d)) = ix2 b d :=
    funext fun a => Fin.ext (by match a with | ⟨0, _⟩ => rfl | ⟨1, _⟩ => rfl)
  have e1 : idx_main_v1 (idx_main_v3 (ix3 b u d)) = ix2 u d :=
    funext fun a => Fin.ext (by match a with | ⟨0, _⟩ => rfl | ⟨1, _⟩ => rfl)
  rw [e0, e1]
  rfl

/-- The `max` reduction at `(b, u)`: the fold of `max` from −∞ over the 512 sums of row `b` of x and row `u` of w. -/
theorem max_apply (X : (⟨S8192x512, .f32⟩ : BufTy).Contents (Elt Ideal)) (W : (⟨S64x512, .f32⟩ : BufTy).Contents (Elt Ideal))
    (b : Fin 8192) (u : Fin 64) :
    val_main_v5 (F := Ideal) X W (ix2 b u) = Finset.univ.fold max negSeed fun d : Fin 512 => X (ix2 b d) + W (ix2 u d) := by
  unfold val_main_v5
  refine (Host.reduce_eq_fold_single (FloatOps.maximumf (F := Ideal) (φ := .f32)) (val_main_v4 (F := Ideal) X W)
    (val_main_cst (F := Ideal)) reducesTo_S8192x64x512_S8192x64_d2 reduces_d h_S_ (ix2 b u)).trans ?_
  refine congrArg (fun f : Fin 512 → EReal => Finset.fold max negSeed f Finset.univ) (funext fun (d : Fin 512) => ?_)
  exact (congrArg (val_main_v4 (F := Ideal) X W) (lift_eq b u d)).trans (sums_apply X W b u d)

/-- The `min` reduction at `(b, u)`. -/
theorem min_apply (X : (⟨S8192x512, .f32⟩ : BufTy).Contents (Elt Ideal)) (W : (⟨S64x512, .f32⟩ : BufTy).Contents (Elt Ideal))
    (b : Fin 8192) (u : Fin 64) :
    val_main_v6 (F := Ideal) X W (ix2 b u) = Finset.univ.fold min posSeed fun d : Fin 512 => X (ix2 b d) + W (ix2 u d) := by
  unfold val_main_v6
  refine (Host.reduce_eq_fold_single (FloatOps.minimumf (F := Ideal) (φ := .f32)) (val_main_v4 (F := Ideal) X W)
    (val_main_cst_0 (F := Ideal)) reducesTo_S8192x64x512_S8192x64_d2 reduces_d h_S_ (ix2 b u)).trans ?_
  refine congrArg (fun f : Fin 512 → EReal => Finset.fold min posSeed f Finset.univ) (funext fun (d : Fin 512) => ?_)
  exact (congrArg (val_main_v4 (F := Ideal) X W) (lift_eq b u d)).trans (sums_apply X W b u d)

/-- The reference's result is `G` of its three arguments. -/
theorem reference_eq (X : (⟨S8192x512, .f32⟩ : BufTy).Contents (Elt Ideal)) (W : (⟨S64x512, .f32⟩ : BufTy).Contents (Elt Ideal))
    (B : (⟨S64, .f32⟩ : BufTy).Contents (Elt Ideal)) :
    val_main_v10 (F := Ideal) X W B = G X W B := by
  funext i
  obtain ⟨b, u, rfl⟩ : ∃ (b : Fin 8192) (u : Fin 64), i = ix2 b u := ⟨i 0, i 1, eq_ix2 i⟩
  rw [val_main_v10_apply, val_main_v7_apply, val_main_v9_apply, val_main_v8_apply, max_apply, min_apply]
  have e : idx_main_v8 (idx_main_v9 (ix2 b u)) = ix1 u :=
    funext fun a => Fin.ext (by match a with | ⟨0, _⟩ => rfl)
  rw [e]
  rfl

end Cert.ReferenceIdeal.RefValue

end
-- ==== Proof.lean ====
/-
  The tropical embedding kernel against its reference, over the extended reals.

  Both programs compute, for every row `b` of x (8192 rows of 512) and every row `u` of w (64 rows of 512),

      out[b, u] = (max_d (x[b, d] + w[u, d]) − min_d (x[b, d] + w[u, d])) + bias[u]

  (`Cert.TropSpec.G`). The reference does so in one piece: the 8192 × 64 × 512 array of sums, one reduction by `max`
  from −∞ and one by `min` from +∞ over its last axis, a subtraction and the bias added down the rows
  (`RefValue.reference_eq`). The kernel does so on a grid of 16 row blocks of 512 rows; within a block it walks the 512
  columns in four trips of 128 lanes, carrying a running maximum and minimum that start at −∞ and +∞, and stores
  (maximum − minimum) + bias at the end (`Body.body_block`, `ArrayValue.run`). The two agree because an extremum over
  512 values is the seed joined with the extrema of its four chunks of 128 (`TropSpec.fold_max_chunks`,
  `fold_min_chunks`): a fact about order alone, true of every extended real, so the finiteness of the inputs is not
  used. The idealization rewrote no operation of the kernel, so there is nothing to preserve.
-/
import proofs.«177423_j8091718386440_2_alg».proof.Defs
import proofs.«177423_j8091718386440_2_alg».proof.Proof.Gen.Kernel
import proofs.«177423_j8091718386440_2_alg».proof.Proof.Gen.Kernel.Skeleton
import proofs.«177423_j8091718386440_2_alg».proof.Proof.Gen.Kernel.Loops
import proofs.«177423_j8091718386440_2_alg».proof.Proof.Gen.Kernel.Launch
import proofs.«177423_j8091718386440_2_alg».proof.Proof.Gen.Kernel.Points
import proofs.«177423_j8091718386440_2_alg».proof.Proof.Gen.Kernel.Frame
import proofs.«177423_j8091718386440_2_alg».proof.Proof.Gen.KernelIdeal
import proofs.«177423_j8091718386440_2_alg».proof.Proof.Gen.KernelIdeal.Skeleton
import proofs.«177423_j8091718386440_2_alg».proof.Proof.Gen.KernelIdeal.Loops
import proofs.«177423_j8091718386440_2_alg».proof.Proof.Gen.KernelIdeal.Launch
import proofs.«177423_j8091718386440_2_alg».proof.Proof.Gen.KernelIdeal.Points
import proofs.«177423_j8091718386440_2_alg».proof.Proof.Gen.KernelIdeal.Frame
import proofs.«177423_j8091718386440_2_alg».proof.Proof.Gen.ReferenceIdeal
import proofs.«177423_j8091718386440_2_alg».proof.Proof.Gen.KernelIdeal.Value
import proofs.«177423_j8091718386440_2_alg».proof.Proof.Gen.ReferenceIdeal.Run
import proofs.«177423_j8091718386440_2_alg».proof.Proof.Gen.ReferenceIdeal.Read
import proofs.«177423_j8091718386440_2_alg».proof.Proof.Gen.Pre_finite_inputs
import proofs.«177423_j8091718386440_2_alg».proof.Proof.KernelArray
import proofs.«177423_j8091718386440_2_alg».proof.Proof.ReferenceValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on x, w and bias, the kernel ends with its result array at `G` of them and the reference
    with its result array at the same `G`. -/
theorem algebraic : Cert.algebraic_KernelIdeal_ReferenceIdeal := by
  intro m ρ m' ρ' _ hagree
  refine ⟨fun c => Cert.TropSpec.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.reference_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
